-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S600000 : Shape := ⟨1, ![600000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S50000x128 .f32) (main_arg2 : IVec S600000 32) (main_arg3 : IVec S600000 32) (main_arg4 : FVec F S256x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S50000x128 : Shape := ⟨2, ![50000, 128]⟩
abbrev S600000 : Shape := ⟨1, ![600000]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S128x128 : Shape := ⟨2, ![128, 128]⟩
abbrev S1x128 : Shape := ⟨2, ![1, 128]⟩
abbrev S2000x128 : Shape := ⟨2, ![2000, 128]⟩

abbrev nBuf : Space → Nat
  | .hbm => 23
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S600000, .i32⟩
  | .hbm, ⟨3, _⟩ => ⟨S600000, .i32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S128x128, .f32⟩
  | .hbm, ⟨20, _⟩ => ⟨S128x128, .f32⟩
  | .hbm, ⟨21, _⟩ => ⟨S1x128, .f32⟩
  | .hbm, ⟨22, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S600000 : Shape := ⟨1, ![600000]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000x256 : Shape := ⟨2, ![50000, 256]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S600000, .i32⟩
  | .hbm, ⟨3, _⟩ => ⟨S600000, .i32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S50000x256, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibConvLayer.lean ====
/-
  A GRAPH-CONVOLUTION LAYER'S DENSE STAGE, AS A FUNCTION OF ITS INDEX, generic in the three extents.

  For two row operands a (the aggregated neighbours) and x (the nodes themselves) of shape [A, K], two matrices w and
  w' of shape [K, B] and a bias row b of shape [1, B], the stage
      conv a x w w' b (r, c) = max (((sum over k of a (r, k) · w (k, c)) + (sum over k of x (r, k) · w' (k, c))) + b (0, c)) 0
  is what, at the ideal values (every float operation exact, rounding between formats the identity),

  * a kernel computes by two matmuls of the operands (rounded to bf16) into zero accumulators, their sum, an addition
    of the bias row broadcast to every row, and a maximum with the zero splat             (`kernel_eq`);
  * the host computes by a dot_general, an addition of the bias row broadcast in dimensions [0, 1], an addition of
    the second dot_general, and a maximum with the rank-0 zero broadcast to the result's shape (`host_eq`):
    the two differ in the order of the three summands, and addition on the extended reals is commutative and
    associative, infinities included.

  The stage at an index reads only one row of a and of x, one column of w and of w' and one entry of b
  (`conv_congr`), so a block of rows of the result is the stage of the same block of rows of a and x.

  The last stage of a perceptron head, without a rectifier,
      affine x w b (r, c) = (sum over k of x (r, k) · w (k, c)) + b (0, c),
  has the same two spellings (`affine_kernel_eq`, `affine_host_eq`), for any width B, one included.

  Nothing here depends on a program.
-/
import Idealize.ShloMosaic.Lib.ValueIdx
import Idealize.ShloMosaic.Lib.Pipeline.Value
import Idealize.ShloMosaic.PureOps.Ideal.Laws
import proofs.«153275_j25348896981718_1_alg».proof.Proof.LibPlainDot

noncomputable section

open scoped BigOperators

namespace Cert.Lib.ConvLayer

open Idealize.ShloMosaic Idealize.ShloMosaic.ValueIdx Cert.Lib.PlainDot

variable {A A' K B : Nat}

/-- The stage at the output index (r, c). -/
def conv (a x : (⟨2, ![A, K]⟩ : Shape).Idx → EReal) (w w' : (⟨2, ![K, B]⟩ : Shape).Idx → EReal)
    (b : (⟨2, ![1, B]⟩ : Shape).Idx → EReal) : (⟨2, ![A, B]⟩ : Shape).Idx → EReal :=
  fun j => max (((∑ k : Fin K, a (ix2 (j 0) k) * w (ix2 k (j 1))) + (∑ k : Fin K, x (ix2 (j 0) k) * w' (ix2 k (j 1))))
    + b (ix2 0 (j 1))) 0

/-- The stage at an index depends on one row of each row operand, one column of each matrix and one entry of the
    bias: two stages (over row operands of different heights) agree at two indices where those agree. -/
theorem conv_congr (a x : (⟨2, ![A, K]⟩ : Shape).Idx → EReal) (a' x' : (⟨2, ![A', K]⟩ : Shape).Idx → EReal)
    (w w' v v' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (ha : ∀ k, a (ix2 (j 0) k) = a' (ix2 (i 0) k)) (hx : ∀ k, x (ix2 (j 0) k) = x' (ix2 (i 0) k))
    (hw : ∀ k, w (ix2 k (j 1)) = v (ix2 k (i 1))) (hw' : ∀ k, w' (ix2 k (j 1)) = v' (ix2 k (i 1)))
    (hb : b (ix2 0 (j 1)) = b' (ix2 0 (i 1))) : conv a x w w' b j = conv a' x' v v' b' i := by
  unfold conv
  rw [hb, Finset.sum_congr rfl fun k _ => congrArg₂ (· * ·) (ha k) (hw k),
    Finset.sum_congr rfl fun k _ => congrArg₂ (· * ·) (hx k) (hw' k)]

/-- A bias row [1, B] broadcast to every row of [A, B], read at an index: the entry of its column (any B, one
    included: then the column is 0 on both sides). -/
theorem bias_row_apply (b : FVec Ideal ⟨2, ![1, B]⟩ .f32) (hbc : (⟨2, ![1, B]⟩ : Shape).Broadcasts ⟨2, ![A, B]⟩)
    (j : (⟨2, ![A, B]⟩ : Shape).Idx) : broadcastTo ⟨2, ![A, B]⟩ b hbc j = b (ix2 0 (j 1)) :=
  broadcastTo_apply b hbc j (ix2 0 (j 1)) (fun a => by
    match a with
    | ⟨0, _⟩ => show (0 : Nat) = if (1 : Nat) = 1 then 0 else _; rw [if_pos rfl]
    | ⟨1, _⟩ =>
      show (j 1).val = if B = 1 then 0 else (j 1).val
      split
      · rename_i h; have hlt : (j 1).val < B := (j 1).isLt; omega
      · rfl)

/-- The same for the host's broadcast in dimensions [0, 1]. -/
theorem bias_row_inDim_apply (b : FVec Ideal ⟨2, ![1, B]⟩ .f32)
    (hb : (⟨2, ![1, B]⟩ : Shape).BroadcastsInDim ⟨2, ![A, B]⟩ (![0, 1] : Fin 2 → Fin 2))
    (j : (⟨2, ![A, B]⟩ : Shape).Idx) : broadcastInDim ⟨2, ![A, B]⟩ ![0, 1] hb b j = b (ix2 0 (j 1)) :=
  broadcastInDim_apply ![0, 1] hb b j (ix2 0 (j 1)) (fun a => by
    match a with
    | ⟨0, _⟩ => show (0 : Nat) = if (1 : Nat) = 1 then 0 else _; rw [if_pos rfl]
    | ⟨1, _⟩ =>
      show (j 1).val = if B = 1 then 0 else (j 1).val
      split
      · rename_i h; have hlt : (j 1).val < B := (j 1).isLt; omega
      · rfl)

/-- The kernel's spelling of the stage. -/
theorem kernel_eq (a x : FVec Ideal ⟨2, ![A, K]⟩ .f32) (w w' : FVec Ideal ⟨2, ![K, B]⟩ .f32)
    (b : FVec Ideal ⟨2, ![1, B]⟩ .f32) (h1 h2 h3 h4 : FTy.bf16.bits < FTy.f32.bits)
    (hbc : (⟨2, ![1, B]⟩ : Shape).Broadcasts ⟨2, ![A, B]⟩) :
    maximumf (addf (addf
          (matmul (DotDims.plain A K B) none (truncf .bf16 a h1) (truncf .bf16 w h2)
            (constant ⟨2, ![A, B]⟩ .f32 0x00000000#32))
          (matmul (DotDims.plain A K B) none (truncf .bf16 x h3) (truncf .bf16 w' h4)
            (constant ⟨2, ![A, B]⟩ .f32 0x00000000#32)))
          (broadcastTo ⟨2, ![A, B]⟩ b hbc))
        (broadcast ⟨2, ![A, B]⟩ (Scalar.ofBits (F := Ideal) .f32 0x00000000#32))
      = conv a x w w' b := by
  funext j
  rw [maximumf_apply, addf_apply, addf_apply, matmul_zero_plain_apply, matmul_zero_plain_apply, broadcast_apply,
    bias_row_apply]
  show max _ (Ideal.ofBits .f32 0x00000000#32) = _
  rw [Ideal.ofBits_zero_f32]
  rfl

/-- The host's spelling of the stage: the bias is added before the second product. -/
theorem host_eq (a x : FVec Ideal ⟨2, ![A, K]⟩ .f32) (w w' : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (addf (Host.dotGeneral (DotDims.plain A K B) none a w) (broadcastInDim ⟨2, ![A, B]⟩ ![0, 1] hb b))
          (Host.dotGeneral (DotDims.plain A K B) none x w'))
        (broadcastInDim ⟨2, ![A, B]⟩ ![] h0 (constant (F := Ideal) ⟨0, ![]⟩ .f32 0x00000000#32))
      = conv a x w w' b := by
  funext j
  rw [maximumf_apply, addf_apply, addf_apply, dotGeneral_plain_apply, dotGeneral_plain_apply, bias_row_inDim_apply]
  rw [broadcastInDim_apply ![] h0 _ j ix0 (fun a => a.elim0), constant_apply, Ideal.ofBits_zero_f32]
  unfold conv
  exact congrArg (fun s : EReal => max s 0) (add_right_comm _ _ _)

/-- The last stage of the head, without a rectifier, at the output index (r, c). -/
def affine (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => (∑ k : Fin K, x (ix2 (j 0) k) * w (ix2 k (j 1))) + b (ix2 0 (j 1))

/-- The kernel's spelling of the last stage. -/
theorem affine_kernel_eq (x : FVec Ideal ⟨2, ![A, K]⟩ .f32) (w : FVec Ideal ⟨2, ![K, B]⟩ .f32)
    (b : FVec Ideal ⟨2, ![1, B]⟩ .f32) (h1 h2 : FTy.bf16.bits < FTy.f32.bits)
    (hbc : (⟨2, ![1, B]⟩ : Shape).Broadcasts ⟨2, ![A, B]⟩) :
    addf (matmul (DotDims.plain A K B) none (truncf .bf16 x h1) (truncf .bf16 w h2)
          (constant ⟨2, ![A, B]⟩ .f32 0x00000000#32)) (broadcastTo ⟨2, ![A, B]⟩ b hbc)
      = affine x w b := by
  funext j
  rw [addf_apply, matmul_zero_plain_apply, bias_row_apply]
  rfl

/-- The host's spelling of the last stage. -/
theorem affine_host_eq (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) :
    addf (Host.dotGeneral (DotDims.plain A K B) none x w) (broadcastInDim ⟨2, ![A, B]⟩ ![0, 1] hb b)
      = affine x w b := by
  funext j
  rw [addf_apply, dotGeneral_plain_apply, bias_row_inDim_apply]
  rfl

end Cert.Lib.ConvLayer

end
-- ==== Proof.Body.lean ====
/-
  The kernel body's one stored value, at the ideal values, as a function of the five blocks it loads.

  The body rounds a [2000, 128] block of node features and the matching block of summed neighbour features to bf16
  (the identity at the ideal values), multiplies each by its own [128, 128] half of the weights into a zero accumulator,
  adds the two products and the bias row broadcast to every row, and takes the maximum with zero: entry (r, c) is
      max (((sum over k of x (r, k) · w1 (k, c)) + (sum over k of a (r, k) · w2 (k, c))) + b (0, c)) 0,
  the two-operand dense stage `Cert.Lib.ConvLayer.conv`. The shape casts the body applies change no shape.
-/
import proofs.«153275_j25348896981718_1_alg».proof.Proof.Gen.KernelIdeal.Skeleton
import proofs.«153275_j25348896981718_1_alg».proof.Proof.LibConvLayer
import Idealize.ShloMosaic.Lib.Pipeline.Value

noncomputable section

namespace Cert.KernelIdeal.Hand

open Idealize.ShloMosaic Cert.KernelIdeal Cert.KernelIdeal.Gen Cert.Lib.ConvLayer Cert.Lib.PlainDot

/-- The stored value is the dense stage of the loaded blocks. -/
theorem pay_eq (x a : Vec Ideal S2000x128 .f32) (w1 w2 : Vec Ideal S128x128 .f32) (b : Vec Ideal S1x128 .f32) :
    k0_pay1 (F := Ideal) x a w1 w2 b = conv x a w1 w2 b := by
  unfold k0_pay1
  simp only [shapeCast_self]
  rw [eq_plain dot_S2000x128_S128x128_S2000x128_1_0_0_1_n_n rfl rfl rfl rfl rfl rfl]
  exact kernel_eq x a w1 w2 b _ _ _ _ _

end Cert.KernelIdeal.Hand

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«153275_j25348896981718_1_alg».proof.Proof.LibPlainDot
import proofs.«153275_j25348896981718_1_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibSplitDot.lean ====
/-
  A PRODUCT WHOSE CONTRACTED AXIS IS SEVERAL BLOCKS LAID SIDE BY SIDE, on the extended reals, generic in the extents.

  If the columns of C : [A, Kt] are the columns of X1 : [A, K1] followed by those of X2 : [A, K2] (Kt = K1 + K2), then
  row by row  C · W = X1 · W[0 : K1] + X2 · W[K1 : Kt] : the sum over the contracted index splits at K1. The same with
  three blocks. Only the associativity of a finite sum is used, so no entry has to be finite.

  * `sum_split2`, `sum_split3`   — a sum over Fin Kt cut into two (three) consecutive ranges;
  * `side2`, `side3`             — blocks side by side along axis 1; `rowsFrom` — K consecutive rows of a matrix;
  * `prod_side2`, `prod_side3`   — the product law;
  * `concat2_eq`, `concat3_eq`   — the host's concatenate along axis 1 of two (three) arrays IS `side2` (`side3`);
  * `slice_eq`                    — a unit-stride slice of whole rows IS `rowsFrom`.

  Nothing here depends on a program.
-/
import proofs.«153275_j25348896981718_1_alg».proof.Proof.LibDenseLayer
import Idealize.ShloMosaic.Lib.ValueIdx
import Idealize.ShloMosaic.Lib.Pipeline.Value
import Idealize.ShloMosaic.PureOps.Ideal.Laws

noncomputable section

open scoped BigOperators

namespace Cert.SplitDot

open Idealize.ShloMosaic Idealize.ShloMosaic.ValueIdx Cert.Layer

/-! ## A finite sum cut into consecutive ranges -/

theorem sum_split2 {K1 K2 Kt : Nat} (h : Kt = K1 + K2) (f : Fin Kt → EReal) :
    ∑ k : Fin Kt, f k
      = (∑ k : Fin K1, f ⟨k.val, by have := k.isLt; omega⟩) + ∑ k : Fin K2, f ⟨K1 + k.val, by have := k.isLt; omega⟩ := by
  subst h
  rw [Fin.sum_univ_add]
  rfl

theorem sum_split3 {K1 K2 K3 Kt : Nat} (h : Kt = K1 + K2 + K3) (f : Fin Kt → EReal) :
    ∑ k : Fin Kt, f k
      = (∑ k : Fin K1, f ⟨k.val, by have := k.isLt; omega⟩) + (∑ k : Fin K2, f ⟨K1 + k.val, by have := k.isLt; omega⟩)
        + ∑ k : Fin K3, f ⟨K1 + K2 + k.val, by have := k.isLt; omega⟩ := by
  subst h
  rw [Fin.sum_univ_add, Fin.sum_univ_add]
  rfl

/-! ## Blocks side by side, and consecutive rows -/

variable {A B : Nat}

/-- X1 : [A, K1] and X2 : [A, K2] side by side: column k is X1's for k < K1, X2's column k − K1 after that. -/
def side2 {K1 K2 Kt : Nat} (h : Kt = K1 + K2) (X1 : (⟨2, ![A, K1]⟩ : Shape).Idx → EReal)
    (X2 : (⟨2, ![A, K2]⟩ : Shape).Idx → EReal) : (⟨2, ![A, Kt]⟩ : Shape).Idx → EReal :=
  fun i => if hk : (i 1).val < K1 then X1 (ix2 (i 0) ⟨(i 1).val, hk⟩)
    else X2 (ix2 (i 0) ⟨(i 1).val - K1, by have := idx2_lt1 i; omega⟩)

/-- Three blocks side by side. -/
def side3 {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal) :
    (⟨2, ![A, Kt]⟩ : Shape).Idx → EReal :=
  fun i => if hk : (i 1).val < K1 then X1 (ix2 (i 0) ⟨(i 1).val, hk⟩)
    else if hk2 : (i 1).val < K1 + K2 then X2 (ix2 (i 0) ⟨(i 1).val - K1, by omega⟩)
    else X3 (ix2 (i 0) ⟨(i 1).val - (K1 + K2), by have := idx2_lt1 i; omega⟩)

/-- Rows K0, …, K0 + K − 1 of W : [Kt, B]. -/
def rowsFrom {Kt : Nat} (K0 K : Nat) (h : K0 + K ≤ Kt) (W : (⟨2, ![Kt, B]⟩ : Shape).Idx → EReal) :
    (⟨2, ![K, B]⟩ : Shape).Idx → EReal :=
  fun i => W (ix2 (⟨K0 + (i 0).val, by have := idx2_lt0 i; omega⟩ : Fin Kt) (i 1))

/-! ## The product law -/

theorem prod_side2 {K1 K2 Kt : Nat} (h : Kt = K1 + K2) (X1 : (⟨2, ![A, K1]⟩ : Shape).Idx → EReal)
    (X2 : (⟨2, ![A, K2]⟩ : Shape).Idx → EReal) (W : (⟨2, ![Kt, B]⟩ : Shape).Idx → EReal) :
    prod (side2 h X1 X2) W
      = fun i => prod X1 (rowsFrom 0 K1 (by omega) W) i + prod X2 (rowsFrom K1 K2 (by omega) W) i :=
  funext fun i => by
    show ∑ k : Fin Kt, side2 h X1 X2 (ix2 (i 0) k) * W (ix2 k (i 1)) = _
    rw [sum_split2 h]
    refine congrArg₂ (· + ·) (Finset.sum_congr rfl fun k _ => ?_) (Finset.sum_congr rfl fun k _ => ?_)
    · show side2 h X1 X2 (ix2 (i 0) ⟨k.val, _⟩) * W (ix2 ⟨k.val, _⟩ (i 1))
        = X1 (ix2 (i 0) k) * W (ix2 ⟨0 + k.val, _⟩ (i 1))
      have e : side2 h X1 X2 (ix2 (i 0) (⟨k.val, by have := k.isLt; omega⟩ : Fin Kt)) = X1 (ix2 (i 0) k) :=
        dif_pos k.isLt
      rw [e]
      exact congrArg (fun j : Fin Kt => X1 (ix2 (i 0) k) * W (ix2 j (i 1))) (Fin.ext (Nat.zero_add _).symm)
    · show side2 h X1 X2 (ix2 (i 0) ⟨K1 + k.val, _⟩) * W (ix2 ⟨K1 + k.val, _⟩ (i 1))
        = X2 (ix2 (i 0) k) * W (ix2 ⟨K1 + k.val, _⟩ (i 1))
      have e : side2 h X1 X2 (ix2 (i 0) (⟨K1 + k.val, by have := k.isLt; omega⟩ : Fin Kt)) = X2 (ix2 (i 0) k) := by
        refine (dif_neg (show ¬ K1 + k.val < K1 by omega)).trans ?_
        congr 2
        exact Fin.ext (by show K1 + k.val - K1 = k.val; omega)
      rw [e]

theorem prod_side3 {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal)
    (W : (⟨2, ![Kt, B]⟩ : Shape).Idx → EReal) :
    prod (side3 h X1 X2 X3) W
      = fun i => prod X1 (rowsFrom 0 K1 (by omega) W) i + prod X2 (rowsFrom K1 K2 (by omega) W) i
          + prod X3 (rowsFrom (K1 + K2) K3 (by omega) W) i :=
  funext fun i => by
    show ∑ k : Fin Kt, side3 h X1 X2 X3 (ix2 (i 0) k) * W (ix2 k (i 1)) = _
    rw [sum_split3 h]
    refine congrArg₂ (· + ·) (congrArg₂ (· + ·) (Finset.sum_congr rfl fun k _ => ?_)
      (Finset.sum_congr rfl fun k _ => ?_)) (Finset.sum_congr rfl fun k _ => ?_)
    · show side3 h X1 X2 X3 (ix2 (i 0) ⟨k.val, _⟩) * W (ix2 ⟨k.val, _⟩ (i 1))
        = X1 (ix2 (i 0) k) * W (ix2 ⟨0 + k.val, _⟩ (i 1))
      have e : side3 h X1 X2 X3 (ix2 (i 0) (⟨k.val, by have := k.isLt; omega⟩ : Fin Kt)) = X1 (ix2 (i 0) k) :=
        dif_pos k.isLt
      rw [e]
      exact congrArg (fun j : Fin Kt => X1 (ix2 (i 0) k) * W (ix2 j (i 1))) (Fin.ext (Nat.zero_add _).symm)
    · show side3 h X1 X2 X3 (ix2 (i 0) ⟨K1 + k.val, _⟩) * W (ix2 ⟨K1 + k.val, _⟩ (i 1))
        = X2 (ix2 (i 0) k) * W (ix2 ⟨K1 + k.val, _⟩ (i 1))
      have e : side3 h X1 X2 X3 (ix2 (i 0) (⟨K1 + k.val, by have := k.isLt; omega⟩ : Fin Kt)) = X2 (ix2 (i 0) k) := by
        refine (dif_neg (show ¬ K1 + k.val < K1 by omega)).trans
          ((dif_pos (show K1 + k.val < K1 + K2 by have := k.isLt; omega)).trans ?_)
        congr 2
        exact Fin.ext (by show K1 + k.val - K1 = k.val; omega)
      rw [e]
    · show side3 h X1 X2 X3 (ix2 (i 0) ⟨K1 + K2 + k.val, _⟩) * W (ix2 ⟨K1 + K2 + k.val, _⟩ (i 1))
        = X3 (ix2 (i 0) k) * W (ix2 ⟨K1 + K2 + k.val, _⟩ (i 1))
      have e : side3 h X1 X2 X3 (ix2 (i 0) (⟨K1 + K2 + k.val, by have := k.isLt; omega⟩ : Fin Kt)) = X3 (ix2 (i 0) k) := by
        refine (dif_neg (show ¬ K1 + K2 + k.val < K1 by omega)).trans
          ((dif_neg (show ¬ K1 + K2 + k.val < K1 + K2 by omega)).trans ?_)
        congr 2
        exact Fin.ext (by show K1 + K2 + k.val - (K1 + K2) = k.val; omega)
      rw [e]

/-! ## The host's spellings -/

/-- The host's concatenate of two arrays along axis 1 is the two side by side. -/
theorem concat2_eq {K1 K2 Kt : Nat} (h : Kt = K1 + K2) (X1 : (⟨2, ![A, K1]⟩ : Shape).Idx → EReal)
    (X2 : (⟨2, ![A, K2]⟩ : Shape).Idx → EReal)
    (hc : Shape.Concatenates [(⟨2, ![A, K1]⟩ : Shape), ⟨2, ![A, K2]⟩] ⟨2, ![A, Kt]⟩ 1) :
    concatenate ⟨2, ![A, Kt]⟩ 1 [⟨⟨2, ![A, K1]⟩, X1⟩, ⟨⟨2, ![A, K2]⟩, X2⟩] hc = side2 h X1 X2 :=
  funext fun i => by
    obtain ⟨a, k, rfl⟩ : ∃ (a : Fin A) (k : Fin Kt), i = ix2 a k := ⟨i 0, i 1, eq_ix2 i⟩
    by_cases hk : k.val < K1
    · refine (concatenate_pair_apply_left 1 X1 X2 hc (ix2 a k) rfl (ix2 a ⟨k.val, hk⟩) fun b => ?_).trans
        (show side2 h X1 X2 (ix2 a k) = X1 (ix2 a ⟨k.val, hk⟩) from dif_pos hk).symm
      match b with
      | ⟨0, _⟩ => rfl
      | ⟨1, _⟩ => rfl
    · refine (concatenate_pair_apply_right 1 X1 X2 hc (ix2 a k) rfl rfl
        (ix2 a ⟨k.val - K1, by have := k.isLt; omega⟩) (fun b hb => ?_) ?_).trans
        (show side2 h X1 X2 (ix2 a k) = X2 (ix2 a ⟨k.val - K1, by have := k.isLt; omega⟩) from dif_neg hk).symm
      · match b with
        | ⟨0, _⟩ => rfl
        | ⟨1, _⟩ => exact absurd rfl hb
      · show k.val - K1 + K1 = k.val
        omega

/-- The host's concatenate of three arrays along axis 1 is the three side by side. -/
theorem concat3_eq {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal)
    (hc : Shape.Concatenates [(⟨2, ![A, K1]⟩ : Shape), ⟨2, ![A, K2]⟩, ⟨2, ![A, K3]⟩] ⟨2, ![A, Kt]⟩ 1) :
    concatenate ⟨2, ![A, Kt]⟩ 1 [⟨⟨2, ![A, K1]⟩, X1⟩, ⟨⟨2, ![A, K2]⟩, X2⟩, ⟨⟨2, ![A, K3]⟩, X3⟩] hc = side3 h X1 X2 X3 :=
  funext fun i => by
    obtain ⟨a, k, rfl⟩ : ∃ (a : Fin A) (k : Fin Kt), i = ix2 a k := ⟨i 0, i 1, eq_ix2 i⟩
    by_cases hk : k.val < K1
    · refine (concatenate_apply_piece 1 [⟨⟨2, ![A, K1]⟩, X1⟩, ⟨⟨2, ![A, K2]⟩, X2⟩, ⟨⟨2, ![A, K3]⟩, X3⟩] hc (ix2 a k) 0 (Nat.zero_lt_succ _) ⟨2, ![A, K1]⟩ X1 rfl rfl 0 rfl
        (ix2 a ⟨k.val, hk⟩) (fun b hb => ?_) ?_).trans
        (show side3 h X1 X2 X3 (ix2 a k) = X1 (ix2 a ⟨k.val, hk⟩) from dif_pos hk).symm
      · match b with
        | ⟨0, _⟩ => rfl
        | ⟨1, _⟩ => exact absurd rfl hb
      · show 0 + k.val = k.val
        omega
    · by_cases hk2 : k.val < K1 + K2
      · refine (concatenate_apply_piece 1 [⟨⟨2, ![A, K1]⟩, X1⟩, ⟨⟨2, ![A, K2]⟩, X2⟩, ⟨⟨2, ![A, K3]⟩, X3⟩] hc (ix2 a k) 1 (Nat.succ_lt_succ (Nat.zero_lt_succ _)) ⟨2, ![A, K2]⟩ X2 rfl rfl K1 ?_
          (ix2 a ⟨k.val - K1, by omega⟩) (fun b hb => ?_) ?_).trans
          (show side3 h X1 X2 X3 (ix2 a k) = X2 (ix2 a ⟨k.val - K1, by omega⟩) from
            (dif_neg hk).trans (dif_pos hk2)).symm
        · simp
        · match b with
          | ⟨0, _⟩ => rfl
          | ⟨1, _⟩ => exact absurd rfl hb
        · show K1 + (k.val - K1) = k.val
          omega
      · refine (concatenate_apply_piece 1 [⟨⟨2, ![A, K1]⟩, X1⟩, ⟨⟨2, ![A, K2]⟩, X2⟩, ⟨⟨2, ![A, K3]⟩, X3⟩] hc (ix2 a k) 2 (Nat.succ_lt_succ (Nat.succ_lt_succ (Nat.zero_lt_succ _))) ⟨2, ![A, K3]⟩ X3 rfl rfl (K1 + K2) ?_
          (ix2 a ⟨k.val - (K1 + K2), by have := k.isLt; omega⟩) (fun b hb => ?_) ?_).trans
          (show side3 h X1 X2 X3 (ix2 a k) = X3 (ix2 a ⟨k.val - (K1 + K2), by have := k.isLt; omega⟩) from
            (dif_neg hk).trans (dif_neg hk2)).symm
        · simp
        · match b with
          | ⟨0, _⟩ => rfl
          | ⟨1, _⟩ => exact absurd rfl hb
        · show K1 + K2 + (k.val - (K1 + K2)) = k.val
          omega

/-- A unit-stride slice of K whole rows starting at row K0 is those rows. -/
theorem slice_eq {Kt : Nat} (K0 K : Nat) (h : K0 + K ≤ Kt) (W : (⟨2, ![Kt, B]⟩ : Shape).Idx → EReal)
    (hs : (⟨2, ![Kt, B]⟩ : Shape).Slices ![K0, 0] ⟨2, ![K, B]⟩) :
    extractStridedSlice ⟨2, ![K, B]⟩ ![K0, 0] W hs = rowsFrom K0 K h W :=
  funext fun i => by
    obtain ⟨k, b, rfl⟩ : ∃ (k : Fin K) (b : Fin B), i = ix2 k b := ⟨i 0, i 1, eq_ix2 i⟩
    refine extractStridedSlice_apply ![K0, 0] W hs (ix2 k b) (ix2 (⟨K0 + k.val, by have := k.isLt; omega⟩ : Fin Kt) b)
      fun a => ?_
    match a with
    | ⟨0, _⟩ => rfl
    | ⟨1, _⟩ => exact (Nat.zero_add _).symm

end Cert.SplitDot

end
-- ==== Proof.LibCatLayer.lean ====
/-
  A RECTIFIED DENSE LAYER ON TWO BLOCKS OF FEATURES LAID SIDE BY SIDE, on the extended reals, generic in the extents.

  For two row operands x, a : [A, K] (a node's own features and the features summed over its neighbours), a weight
  matrix W : [Kt, B] with Kt = K + K, and a bias vector b : [B], the layer
      catLayer x a W b (r, c) = max (((sum over k of x (r, k) · W (k, c)) + (sum over k of a (r, k) · W (K + k, c))) + b (c)) 0
  is what, at the ideal values (every float operation exact),

  * the host computes from the concatenation [x | a] : [A, Kt] by ONE dot_general with W, an addition of the bias
    broadcast [B] → [1, B] → [A, B], and a maximum with the rank-0 zero broadcast to the result's shape (`host_eq`): the sum
    over the Kt contracted indices splits at K, and only the associativity of a finite sum is used, so no entry has to be
    finite;
  * the graph-convolution stage `Cert.Lib.ConvLayer.conv` computes from the two row operands, the two halves of W cut
    out by unit-stride slices of whole rows, and the bias recast as a [1, B] row (`conv_eq`): what a kernel that never
    forms the concatenation is handed.

  Nothing here depends on a program.
-/
import proofs.«153275_j25348896981718_1_alg».proof.Proof.LibConvLayer
import proofs.«153275_j25348896981718_1_alg».proof.Proof.LibSplitDot
import proofs.«153275_j25348896981718_1_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lib.CatLayer

open Idealize.ShloMosaic Idealize.ShloMosaic.ValueIdx Cert.Layer Cert.SplitDot Cert.Lib.ConvLayer

variable {A K Kt B : Nat}

/-- The layer at the output index (r, c): the first K rows of W meet x, the last K rows meet a. -/
def catLayer (h : Kt = K + K) (x a : (⟨2, ![A, K]⟩ : Shape).Idx → EReal) (W : (⟨2, ![Kt, B]⟩ : Shape).Idx → EReal)
    (b : (⟨1, ![B]⟩ : Shape).Idx → EReal) : (⟨2, ![A, B]⟩ : Shape).Idx → EReal :=
  act (fun i => prod x (rowsFrom 0 K (by omega) W) i + prod a (rowsFrom K K (by omega) W) i) b 0

/-- The host's spelling: concatenate along axis 1, one dot_general, the bias broadcast to every row, the rectifier. -/
theorem host_eq (h : Kt = K + K) (x a : FVec Ideal ⟨2, ![A, K]⟩ .f32) (W : FVec Ideal ⟨2, ![Kt, B]⟩ .f32)
    (b : FVec Ideal ⟨1, ![B]⟩ .f32) (d : DotDims ⟨2, ![A, Kt]⟩ ⟨2, ![Kt, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hc : Shape.Concatenates [(⟨2, ![A, K]⟩ : Shape), ⟨2, ![A, K]⟩] ⟨2, ![A, Kt]⟩ 1)
    (hb1 : (⟨1, ![B]⟩ : Shape).BroadcastsInDim ⟨2, ![1, B]⟩ ![1])
    (hb2 : (⟨2, ![1, B]⟩ : Shape).BroadcastsInDim ⟨2, ![A, B]⟩ ![0, 1])
    (h0 : (⟨0, ![]⟩ : Shape).BroadcastsInDim ⟨2, ![A, B]⟩ ![]) :
    maximumf (addf (Host.dotGeneral d none
            (concatenate ⟨2, ![A, Kt]⟩ 1 [⟨⟨2, ![A, K]⟩, x⟩, ⟨⟨2, ![A, K]⟩, a⟩] hc) W)
          (broadcastInDim ⟨2, ![A, B]⟩ ![0, 1] hb2 (broadcastInDim ⟨2, ![1, B]⟩ ![1] hb1 b)))
        (broadcastInDim ⟨2, ![A, B]⟩ ![] h0 (constant (F := Ideal) ⟨0, ![]⟩ .f32 0x00000000#32))
      = catLayer h x a W b := by
  rw [hostAct_eq, dotGeneral_eq_prod d h1 h2 h3 h4 h5 h6, concat2_eq h x a hc, prod_side2 h x a W, constant_apply,
    Ideal.ofBits_zero_f32]
  rfl

/-- The two-operand stage over the halves of W and the bias as a row is the layer. -/
theorem conv_eq (h : Kt = K + K) (x a : (⟨2, ![A, K]⟩ : Shape).Idx → EReal) (W : (⟨2, ![Kt, B]⟩ : Shape).Idx → EReal)
    (b : (⟨1, ![B]⟩ : Shape).Idx → EReal)
    (hs0 : (⟨2, ![Kt, B]⟩ : Shape).Slices ![0, 0] ⟨2, ![K, B]⟩)
    (hs1 : (⟨2, ![Kt, B]⟩ : Shape).Slices ![K, 0] ⟨2, ![K, B]⟩)
    (hcast : (⟨1, ![B]⟩ : Shape).ShapeCasts ⟨2, ![1, B]⟩) :
    conv x a (extractStridedSlice ⟨2, ![K, B]⟩ ![0, 0] W hs0) (extractStridedSlice ⟨2, ![K, B]⟩ ![K, 0] W hs1)
        (shapeCast ⟨2, ![1, B]⟩ b hcast)
      = catLayer h x a W b := by
  rw [slice_eq 0 K (by omega) W hs0, slice_eq K K (by omega) W hs1]
  funext j
  obtain ⟨r, c, rfl⟩ : ∃ (r : Fin A) (c : Fin B), j = ix2 r c := ⟨j 0, j 1, eq_ix2 j⟩
  exact congrArg (fun s : EReal => max (((∑ k : Fin K, x (ix2 r k) * rowsFrom 0 K (by omega) W (ix2 k c))
    + (∑ k : Fin K, a (ix2 r k) * rowsFrom K K (by omega) W (ix2 k c))) + s) 0) (shapeCast_a_1a_apply b hcast 0 c)

end Cert.Lib.CatLayer

end
-- ==== Proof.Blocks.lean ====
/-
  What the kernel leaves in its result array, at the ideal values, as ONE function of the arrays the region finds.

  The grid has 25 points; point t stages rows 2000·t … 2000·t + 1999 of the node features and of the summed neighbour
  features, the two [128, 128] halves of the weights and the bias row (the same at every point), and writes rows
  2000·t … 2000·t + 1999 of the result. The dense stage reads, for the entry (r, c), only row r of each row operand,
  column c of each weight half and entry c of the bias, so block t of the stage of the whole arrays is the stage of the
  blocks at t; the 25 blocks of 2000 rows cover the 50000 rows. The weight halves are the host's slices of W and the bias
  row the host's recast of b, so the stage of the whole arrays is the layer on [x | a] and W (`Cert.Lib.CatLayer`).
-/
import proofs.«153275_j25348896981718_1_alg».proof.Proof.Gen.KernelIdeal.Value
import proofs.«153275_j25348896981718_1_alg».proof.Proof.Body
import proofs.«153275_j25348896981718_1_alg».proof.Proof.LibCatLayer
import Idealize.ShloMosaic.Lib.Pipeline.Value
import Idealize.ShloMosaic.Lib.StableHlo.Run

noncomputable section

namespace Cert.KernelIdeal.Hand

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)
open Cert.Lib.ConvLayer Cert.Lib.CatLayer

variable (m : (ℓ : Loc nD τ sig) → Buf (Elt Ideal) ℓ) (ρ : Dev nD → PrngReg)

theorem hz : (![0, 0] : Fin 2 → Nat) = fun _ => 0 := funext fun a => by fin_cases a <;> rfl

/-! ## The arrays the host wrote before the region -/

/-- The first weight half is rows 0 … 127 of W. -/
theorem V_w1 (c : Dev nD) : (V m c main_v10 : S128x128.Idx → EReal)
    = extractStridedSlice S128x128 ![0, 0] (m ((c : Thread nD τ).loc main_arg4)) slices_S256x128_S128x128_0_0 := by
  dsimp only [Gen.V, Gen.hostOps0]
  after_results

/-- The second weight half is rows 128 … 255 of W. -/
theorem V_w2 (c : Dev nD) : (V m c main_v11 : S128x128.Idx → EReal)
    = extractStridedSlice S128x128 ![128, 0] (m ((c : Thread nD τ).loc main_arg4)) slices_S256x128_S128x128_128_0 := by
  dsimp only [Gen.V, Gen.hostOps0]
  after_results

/-- The bias row is b recast as a [1, 128] row. -/
theorem V_brow (c : Dev nD) : (V m c main_v12 : S1x128.Idx → EReal)
    = shapeCast S1x128 (m ((c : Thread nD τ).loc main_arg5)) shapeCasts_S128_S1x128 := by
  dsimp only [Gen.V, Gen.hostOps0]
  after_results
  rfl

/-! ## The result as one function -/

/-- The layer on the node features beside the summed neighbour features (as the region finds them), W and b. -/
def out (c : Dev nD) : S50000x128.Idx → EReal :=
  catLayer (A := 50000) (K := 128) (Kt := 256) (B := 128) rfl (m ((c : Thread nD τ).loc main_arg1)) (V m c main_v9)
    (m ((c : Thread nD τ).loc main_arg4)) (m ((c : Thread nD τ).loc main_arg5))

/-- The same as the two-operand stage of the five arrays the windows stage. -/
theorem out_eq_conv (c : Dev nD) :
    out m c = conv (A := 50000) (K := 128) (B := 128) (m ((c : Thread nD τ).loc main_arg1)) (V m c main_v9)
      (V m c main_v10) (V m c main_v11) (V m c main_v12) := by
  rw [V_w1, V_w2, V_brow]
  exact (conv_eq rfl _ _ _ _ _ _ _).symm

/-! ## Where each window's block sits -/

/-- The printed index maps over the 25 points: the row-blocked windows sit at block row t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row y of the node-feature block at t is row 2000·t + y of the node features. -/
theorem iblk0_apply (c : Dev nD) (t : Fin cfg0.N) (y : S2000x128.Idx) (i : S50000x128.Idx)
    (h0 : (i 0).val = 2000 * t.val + (y 0).val) (h1 : (i 1).val = (y 1).val) :
    (iblk m c 0 t : Vec Ideal S2000x128 .f32) y = (m ((c : Thread nD τ).loc main_arg1) : S50000x128.Idx → EReal) i := by
  obtain ⟨e0, e1, -⟩ := idx_facts t
  unfold iblk
  rw [View.read_apply]
  show V m c main_arg1 _ = _
  rw [V_main_arg1]
  congr 1
  funext a
  apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- Row y of the neighbour-sum block at t is row 2000·t + y of the neighbour sums. -/
theorem iblk1_apply (c : Dev nD) (t : Fin cfg0.N) (y : S2000x128.Idx) (i : S50000x128.Idx)
    (h0 : (i 0).val = 2000 * t.val + (y 0).val) (h1 : (i 1).val = (y 1).val) :
    (iblk m c 1 t : Vec Ideal S2000x128 .f32) y = (V m c main_v9 : S50000x128.Idx → EReal) i := by
  obtain ⟨-, -, e0, e1, -⟩ := idx_facts t
  unfold iblk
  rw [View.read_apply]
  show V m c main_v9 _ = _
  congr 1
  funext a
  apply Fin.ext
  match a with
  | ⟨0, _⟩ => show win0_1.index t 0 * 2000 + 1 * (y 0).val = (i 0).val; rw [e0, h0]; omega
  | ⟨1, _⟩ => show win0_1.index t 1 * 128 + 1 * (y 1).val = (i 1).val; rw [e1, h1]; omega

/-- The first weight half's block at any point is the whole half. -/
theorem iblk2_apply (c : Dev nD) (t : Fin cfg0.N) (y : S128x128.Idx) :
    (iblk m c 2 t : Vec Ideal S128x128 .f32) y = (V m c main_v10 : S128x128.Idx → EReal) y := by
  obtain ⟨-, -, -, -, e0, e1, -⟩ := idx_facts t
  unfold iblk
  rw [View.read_apply]
  show V m c main_v10 _ = _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The second weight half's block at any point is the whole half. -/
theorem iblk3_apply (c : Dev nD) (t : Fin cfg0.N) (y : S128x128.Idx) :
    (iblk m c 3 t : Vec Ideal S128x128 .f32) y = (V m c main_v11 : S128x128.Idx → EReal) y := by
  obtain ⟨-, -, -, -, -, -, e0, e1, -⟩ := idx_facts t
  unfold iblk
  rw [View.read_apply]
  show V m c main_v11 _ = _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The bias row's block at any point is the whole row. -/
theorem iblk4_apply (c : Dev nD) (t : Fin cfg0.N) (y : S1x128.Idx) :
    (iblk m c 4 t : Vec Ideal S1x128 .f32) y = (V m c main_v12 : S1x128.Idx → EReal) y := by
  obtain ⟨-, -, -, -, -, -, -, -, e0, e1, -⟩ := idx_facts t
  unfold iblk
  rw [View.read_apply]
  show V m c main_v12 _ = _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-! ## Blocks to the array -/

/-- What point t writes back is block t of `out`. -/
theorem flushed_eq (c : Dev nD) (t : Fin cfg0.N) :
    (dats m 0 c).flushed 5 t = ((cfg0.win 5).blk t).view.read (Elt Ideal) (out m c) := by
  rw [Value.flushed5]
  unfold out0_5
  rw [View.canon_unit_zero hz]
  simp only [View.ld_unit_zero (S := S2000x128) hz, View.ld_unit_zero (S := S128x128) hz, View.ld_unit_zero (S := S1x128) hz]
  rw [pay_eq, out_eq_conv]
  obtain ⟨-, -, -, -, -, -, -, -, -, -, e0, e1⟩ := idx_facts t
  funext y
  show conv (iblk m c 0 t : Vec Ideal S2000x128 .f32) (iblk m c 1 t) (iblk m c 2 t) (iblk m c 3 t) (iblk m c 4 t) y
    = conv (A := 50000) (K := 128) (B := 128) (m ((c : Thread nD τ).loc main_arg1)) (V m c main_v9)
      (V m c main_v10) (V m c main_v11) (V m c main_v12) (((cfg0.win 5).blk t).view.emb y)
  have hr : ((((cfg0.win 5).blk t).view.emb y) 0).val = 2000 * t.val + (y 0).val := by
    show win0_5.index t 0 * 2000 + 1 * (y 0).val = _
    rw [e0]; omega
  have hc : ((((cfg0.win 5).blk t).view.emb y) 1).val = (y 1).val := by
    show win0_5.index t 1 * 128 + 1 * (y 1).val = _
    rw [e1]; omega
  refine conv_congr _ _ _ _ _ _ _ _ _ _ y _ (fun k => iblk0_apply m c t _ _ hr rfl) (fun k => iblk1_apply m c t _ _ hr rfl)
    (fun k => ?_) (fun k => ?_) ?_
  · refine (iblk2_apply m c t _).trans (congrArg _ (funext fun a => Fin.ext ?_))
    match a with
    | ⟨0, _⟩ => rfl
    | ⟨1, _⟩ => exact hc.symm
  · refine (iblk3_apply m c t _).trans (congrArg _ (funext fun a => Fin.ext ?_))
    match a with
    | ⟨0, _⟩ => rfl
    | ⟨1, _⟩ => exact hc.symm
  · refine (iblk4_apply m c t _).trans (congrArg _ (funext fun a => Fin.ext ?_))
    match a with
    | ⟨0, _⟩ => rfl
    | ⟨1, _⟩ => exact hc.symm

/-- An index of the result is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v13).slice (win0_5.rect t)).set ↔ _
  rw [View.set_slice_whole, Rect.mem_set_unit]
  exact Iff.rfl

/-- Row r of the result is in the block of point r / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, -, -, -, -, e0, e1⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ 0 * 2000 ≤ (i 0).val
      ∧ (i 0).val < win0_5.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win0_5.index ⟨(i 0).val / 2000, hlt⟩ 1 * 128 ≤ (i 1).val
      ∧ (i 1).val < win0_5.index ⟨(i 0).val / 2000, hlt⟩ 1 * 128 + 128
    rw [e1]
    omega

/-- The result array after the run is `out`. -/
theorem final (c : Dev nD) : (dats m 0 c).arrAt 5 cfg0.N = out m c :=
  (dats m 0 c).arrAt_eq_of_cover 5 (out m c) (fun t _ => flushed_eq m c t) cover

/-- The kernel's run: the result array at `out`, the arguments unchanged. -/
theorem run : θ_run defs (onTc (τ := τ) (main (F := Ideal))) ⟨m, fun _ => 0, ρ⟩ fun r => ∀ c : Dev nD,
      r.2.mem ((c : Thread nD τ).loc main_v13) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Hand

end
-- ==== Proof.Reference.lean ====
/-
  The reference's result, at the ideal values, as the same function of the argument arrays as the kernel's.

  The reference concatenates the node features and the summed neighbour features into [x | a] : [50000, 256], takes ONE
  product with W : [256, 128], adds the bias broadcast to every row and rectifies: the layer of `Cert.Lib.CatLayer`.
  The summed neighbour features are, in both programs, the same host operations of the same arguments (a gather of the
  source rows along the edges, a negative source index wrapped once, scatter-added into zeros at the edges'
  destinations): the two programs' records of the gather's and the scatter's dimension numbers hold the same lists.
-/
import proofs.«153275_j25348896981718_1_alg».proof.Proof.Gen.ReferenceIdeal.Run
import proofs.«153275_j25348896981718_1_alg».proof.Proof.Blocks
import proofs.«153275_j25348896981718_1_alg».proof.Proof.LibCatLayer

noncomputable section

namespace Cert.ReferenceIdeal.Hand

open Idealize.ShloMosaic Idealize.ShloMosaic.TcCoe Idealize.SL.Sem Idealize.ShloMosaic.StableHlo
open Cert.Lib.CatLayer

section
open Cert.ReferenceIdeal Cert.ReferenceIdeal.Facts₀

/-- The reference's rectified product of the concatenation is the layer. -/
theorem ref_eq (x a : FVec Ideal S50000x128 .f32) (W : FVec Ideal S256x128 .f32) (b : FVec Ideal S128 .f32) :
    maximumf (addf (Host.dotGeneral dot_S50000x256_S256x128_S50000x128_1_0_0_1_n_n none
          (concatenate S50000x256 1 [⟨S50000x128, x⟩, ⟨S50000x128, a⟩] concatenates_S50000x128_S50000x128_S50000x256_d1) W)
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
      = catLayer (A := 50000) (K := 128) (Kt := 256) (B := 128) rfl x a W b :=
  host_eq rfl x a W b _ rfl rfl rfl rfl rfl rfl _ _ _ _

end

/-- The summed neighbour features the kernel's region finds are the reference's term of the same arguments. -/
theorem agg_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v9 : Cert.ReferenceIdeal.S50000x128.Idx → EReal)
      = Host.scatterAdd (F := Ideal) Cert.ReferenceIdeal.scatter_S50000x128_S600000x1_S600000x128_1_0_0_1
          (broadcastInDim Cert.ReferenceIdeal.S50000x128 ![] Cert.ReferenceIdeal.Facts₀.bcast_S_S50000x128
            (constant (F := Ideal) Cert.ReferenceIdeal.S_ .f32 0x00000000#32))
          (broadcastInDim Cert.ReferenceIdeal.S600000x1 ![0] Cert.ReferenceIdeal.Facts₀.bcast_S600000_S600000x1_0
            (m ((c.tc : Thread Cert.KernelIdeal.nD Cert.KernelIdeal.τ).loc Cert.KernelIdeal.main_arg3)))
          (Host.gather Cert.ReferenceIdeal.gather_S100000x128_S600000x1_S600000x128_1_0_n_n_0_1_1128
            (m ((c.tc : Thread Cert.KernelIdeal.nD Cert.KernelIdeal.τ).loc Cert.KernelIdeal.main_arg0))
            (broadcastInDim Cert.ReferenceIdeal.S600000x1 ![0] Cert.ReferenceIdeal.Facts₀.bcast_S600000_S600000x1_0
              (select (cmpi .slt (m ((c.tc : Thread Cert.KernelIdeal.nD Cert.KernelIdeal.τ).loc Cert.KernelIdeal.main_arg2))
                  (broadcastInDim Cert.ReferenceIdeal.S600000 ![] Cert.ReferenceIdeal.Facts₀.bcast_S_S600000
                    (constantI Cert.ReferenceIdeal.S_ 32 0#32)))
                (addi (m ((c.tc : Thread Cert.KernelIdeal.nD Cert.KernelIdeal.τ).loc Cert.KernelIdeal.main_arg2))
                  (broadcastInDim Cert.ReferenceIdeal.S600000 ![] Cert.ReferenceIdeal.Facts₀.bcast_S_S600000
                    (constantI Cert.ReferenceIdeal.S_ 32 100000#32)))
                (m ((c.tc : Thread Cert.KernelIdeal.nD Cert.KernelIdeal.τ).loc Cert.KernelIdeal.main_arg2))))) := by
  dsimp only [Cert.KernelIdeal.Gen.V, Cert.KernelIdeal.Gen.hostOps0]
  after_results
  rfl

end Cert.ReferenceIdeal.Hand

end
-- ==== Proof.lean ====
/-
  A graph message-passing layer: the node update  relu ([x | a] · W + b)  over 50000 nodes, where x are the nodes' own
  features and a the features of their neighbours summed along 600000 edges.

  The kernel never forms [x | a]. The host slices W : [256, 128] into its two [128, 128] halves and recasts b as a
  row; a 25-point grid then computes, 2000 rows at a time,  max ((x · W[0:128] + a · W[128:256]) + b, 0).
  The reference concatenates x and a and takes one product with W. At the ideal values (floats are extended reals,
  every operation exact, the kernel's rounding of the matmul operands to bf16 the identity) both are, at (r, c),
      max (((sum over k < 128 of x (r, k) · W (k, c)) + (sum over k < 128 of a (r, k) · W (128 + k, c))) + b (c)) 0 :
  the reference's sum over the 256 contracted indices splits at 128. Only the associativity of a finite sum on the
  extended reals is used, so the precondition (finite inputs) is never opened. The neighbour sums a are computed on
  the host by the same gather and scatter-add in both programs and are carried as one term.

  Modules: Body (the kernel body's stored value is the two-operand dense stage of its loaded blocks), Blocks (the 25
  blocks of that stage are the blocks of ONE function of the whole arrays, which is the layer), Reference (the
  reference's term is the layer; the neighbour sums agree), and the general lemma files they build on. The frames of
  the two kernel programs and the kernel's run block by block are the generated modules'; the reference's run is its
  generated run.
-/
import proofs.«153275_j25348896981718_1_alg».proof.Defs
import proofs.«153275_j25348896981718_1_alg».proof.Proof.Gen.Kernel
import proofs.«153275_j25348896981718_1_alg».proof.Proof.Gen.Kernel.Skeleton
import proofs.«153275_j25348896981718_1_alg».proof.Proof.Gen.Kernel.Launch
import proofs.«153275_j25348896981718_1_alg».proof.Proof.Gen.Kernel.Points
import proofs.«153275_j25348896981718_1_alg».proof.Proof.Gen.Kernel.Frame
import proofs.«153275_j25348896981718_1_alg».proof.Proof.Gen.KernelIdeal
import proofs.«153275_j25348896981718_1_alg».proof.Proof.Gen.KernelIdeal.Skeleton
import proofs.«153275_j25348896981718_1_alg».proof.Proof.Gen.KernelIdeal.Launch
import proofs.«153275_j25348896981718_1_alg».proof.Proof.Gen.KernelIdeal.Points
import proofs.«153275_j25348896981718_1_alg».proof.Proof.Gen.KernelIdeal.Frame
import proofs.«153275_j25348896981718_1_alg».proof.Proof.Gen.ReferenceIdeal
import proofs.«153275_j25348896981718_1_alg».proof.Proof.Gen.Pre_finite_inputs
import proofs.«153275_j25348896981718_1_alg».proof.Proof.Gen.KernelIdeal.Value
import proofs.«153275_j25348896981718_1_alg».proof.Proof.Gen.ReferenceIdeal.Run
import proofs.«153275_j25348896981718_1_alg».proof.Proof.Blocks
import proofs.«153275_j25348896981718_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel. -/
theorem preserves : Cert.preserves_Kernel_KernelIdeal := trivial

/-- Both programs end with the layer of the node features beside the neighbour sums, W and b. -/
theorem algebraic : Cert.algebraic_KernelIdeal_ReferenceIdeal := by
  intro m ρ m' ρ' _ hagree
  refine ⟨fun c => Cert.KernelIdeal.Hand.out m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  refine (Cert.ReferenceIdeal.Hand.ref_eq _ _ _ _).trans ?_
  show _ = Cert.KernelIdeal.Hand.out m c
  unfold Cert.KernelIdeal.Hand.out
  rw [Cert.ReferenceIdeal.Hand.agg_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
